-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S8192x4096 .f32) (main_arg1 : FVec F S8192x4096 .f32) (main_arg2 : FVec F S4096x4096 .f32) (main_arg3 : FVec F S4096x4096 .f32) (main_arg4 : FVec F S4096x4096 .f32) (main_arg5 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S512x512 : Shape := ⟨2, ![512, 512]⟩
abbrev S128x4096 : Shape := ⟨2, ![128, 4096]⟩
abbrev S512x1024 : Shape := ⟨2, ![512, 1024]⟩
abbrev S1024x1024 : Shape := ⟨2, ![1024, 1024]⟩

abbrev nBuf : Space → Nat
  | .hbm => 12
  | .vmem => 32
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .bf16⟩
  | .hbm, ⟨8, _⟩ => ⟨S8192x4096, .bf16⟩
  | .hbm, ⟨9, _⟩ => ⟨S8192x4096, .bf16⟩
  | .hbm, ⟨10, _⟩ => ⟨S8192x4096, .f32⟩
  | .hbm, ⟨11, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .bf16⟩
  | .local _ .vmem, ⟨17, _⟩ => ⟨S128x4096, .bf16⟩
  | .local _ .vmem, ⟨18, _⟩ => ⟨S128x4096, .bf16⟩
  | .local _ .vmem, ⟨19, _⟩ => ⟨S128x4096, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![16, 4, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .bf16 = 32 ∨ (Rect.block (s := S4096x4096) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .bf16 = 32 ∨ (Rect.block (s := S4096x4096) S512x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S8192x4096.size a
  hwx1_1 : ∀ i : grid1.Coords, EltTy.bits .f32 = 32 ∨ (Rect.block (s := S8192x4096) S128x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S8192x4096.size a
  hwx1_2 : ∀ i : grid1.Coords, EltTy.bits .bf16 = 32 ∨ (Rect.block (s := S8192x4096) S128x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S8192x4096.size a
  hwx1_3 : ∀ i : grid1.Coords, EltTy.bits .bf16 = 32 ∨ (Rect.block (s := S8192x4096) S128x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x4096.size a
  hwx2_0 : ∀ i : grid2.Coords, EltTy.bits .bf16 = 32 ∨ (Rect.block (s := S8192x4096) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S8192x4096.size a
  hwx2_1 : ∀ i : grid2.Coords, EltTy.bits .bf16 = 32 ∨ (Rect.block (s := S8192x4096) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .bf16 = 32 ∨ (Rect.block (s := S4096x4096) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .bf16 = 32 ∨ (Rect.block (s := S4096x4096) S1024x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S8192x4096.size a
  hwx2_4 : ∀ i : grid2.Coords, EltTy.bits .f32 = 32 ∨ (Rect.block (s := S8192x4096) S512x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S8192x4096.size a
  hwx2_5 : ∀ i : grid2.Coords, EltTy.bits .f32 = 32 ∨ (Rect.block (s := S8192x4096) S512x1024.size (cc2_transform_5 i) (hinb2_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S128x4096.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_1) S1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_0) S512x1024.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2_1) S512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .i1⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S8192x4096, .f32⟩
  | .hbm, ⟨38, _⟩ => ⟨S4096x4096, .f32⟩
  | .hbm, ⟨39, _⟩ => ⟨S8192x4096, .f32⟩
  | .hbm, ⟨40, _⟩ => ⟨S4096x4096, .f32⟩
  | .hbm, ⟨41, _⟩ => ⟨S8192x4096, .f32⟩
  | .hbm, ⟨42, _⟩ => ⟨S4096x4096, .f32⟩
  | .hbm, ⟨43, _⟩ => ⟨S8192x4096, .f32⟩
  | .hbm, ⟨44, _⟩ => ⟨S8192x4096, .f32⟩
  | .hbm, ⟨45, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of a complex linear layer with binarized weights, over the extended reals.

  A weight `w` is thresholded at zero: `step w` is 1 when `0 < w` and 0 otherwise. A signed binary weight is the
  difference of two thresholds, `sgnw p n = step p - step n`, a value in {-1, 0, 1}. With `wr = sgnw wrp wrn` and
  `wc = sgnw wcp wcn`, the layer maps the pair `(xr, xc)` to

      yReal = xr · wrᵀ + xc · wcᵀ        yCplx = xr · wcᵀ + xc · wrᵀ

  entry by entry: `(x · wᵀ) (i, j) = ∑ k, x (i, k) * w (j, k)` over the 4096 input features.

  Two facts are proved here. The thresholding can be computed through `tanh`: since `tanh w` is always a finite real
  and is positive exactly when `w` is, `tanh w + (q - tanh w) = q` for the 0/1 indicator `q` of `0 < tanh w`, and that
  indicator is `step w`. And a sum over 4096 features is the sum, over four consecutive blocks of 1024 features, of the
  blocks' sums — addition of extended reals is commutative and associative, so no finiteness is needed.
-/
import Idealize.ShloMosaic.PureOps.Ideal
import Idealize.ShloMosaic.PureOps.Ideal.Laws
import Idealize.ShloMosaic.Lib.ValueIdx

noncomputable section

namespace Cert.BinaryLinear

open Idealize.ShloMosaic Idealize.ShloMosaic.ValueIdx

/-- The threshold at zero: 1 on the positive extended reals, 0 elsewhere. -/
def step (a : EReal) : EReal := if 0 < a then 1 else 0

/-- A signed binary weight: the threshold of the positive part minus the threshold of the negative part. -/
def sgnw (p n : EReal) : EReal := step p - step n

/-- A matrix of extended reals with `r` rows and `c` columns. -/
abbrev Mat (r c : Nat) : Type := (⟨2, ![r, c]⟩ : Shape).Idx → EReal

/-- One product of the contraction, at feature `n` (zero past the 4096 features, which no sum below reaches). -/
def term (x : Mat 8192 4096) (w : Mat 4096 4096) (i : Fin 8192) (j : Fin 4096) (n : Nat) : EReal :=
  if h : n < 4096 then x (ix2 i ⟨n, h⟩) * w (ix2 j ⟨n, h⟩) else 0

/-- Entry `(i, j)` of `x · wᵀ`: the sum over the features `k` of `x (i, k) * w (j, k)`. -/
def rowdot (x : Mat 8192 4096) (w : Mat 4096 4096) (i : Fin 8192) (j : Fin 4096) : EReal :=
  ∑ k : Fin 4096, x (ix2 i k) * w (ix2 j k)

/-- The real part of the layer's output. -/
def yReal (xr xc : Mat 8192 4096) (wr wc : Mat 4096 4096) : Mat 8192 4096 :=
  fun idx => rowdot xr wr (idx 0) (idx 1) + rowdot xc wc (idx 0) (idx 1)

/-- The imaginary part of the layer's output. -/
def yCplx (xr xc : Mat 8192 4096) (wr wc : Mat 4096 4096) : Mat 8192 4096 :=
  fun idx => rowdot xr wc (idx 0) (idx 1) + rowdot xc wr (idx 0) (idx 1)

/-! ## The threshold through `tanh` -/

theorem real_tanh_pos_iff (r : ℝ) : 0 < Real.tanh r ↔ 0 < r := by
  rw [Real.tanh_eq_sinh_div_cosh, div_pos_iff_of_pos_right (Real.cosh_pos r), Real.sinh_pos_iff]

/-- `tanh` of an extended real is a finite real. -/
theorem tanh_real (a : EReal) : ∃ t : ℝ, Ideal.tanh a = (t : EReal) := by
  induction a using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- `tanh` is positive exactly on the positive extended reals (it is increasing through zero, -1 at -∞, 1 at +∞). -/
theorem tanh_pos_iff (a : EReal) : 0 < Ideal.tanh a ↔ 0 < a := by
  induction a using EReal.rec with
  | bot => rw [Ideal.tanh_bot]; constructor
           · intro h; exact absurd h (by norm_num)
           · intro h; exact absurd h (not_lt_bot)
  | top => rw [Ideal.tanh_top]; exact ⟨fun _ => EReal.zero_lt_top, fun _ => zero_lt_one⟩
  | coe r => rw [Ideal.tanh_coe r]; exact_mod_cast real_tanh_pos_iff r

theorem zero_f32 : Ideal.ofBits .f32 0x00000000#32 = 0 := Ideal.ofBits_zero_f32

theorem one_f32 : Ideal.ofBits .f32 0x3F800000#32 = 1 := by
  simp [Ideal.ofBits, Ideal.ieee, -EReal.coe_mul]; norm_num

/-- The comparison `a > 0`, as a bit. -/
theorem cmp_gt_zero (a : EReal) :
    Ideal.cmp .ogt a (Ideal.ofBits .f32 0x00000000#32) = if 0 < a then 1#1 else 0#1 := by
  rw [zero_f32]
  unfold Ideal.cmp
  by_cases h : 0 < a <;> simp [h]

/-- Selecting 1 or 0 by the comparison `a > 0` is the threshold. -/
theorem select_step (a : EReal) :
    Scalar.select (Ideal.cmp .ogt a (Ideal.ofBits .f32 0x00000000#32)) (Ideal.ofBits .f32 0x3F800000#32)
      (Ideal.ofBits .f32 0x00000000#32) = step a := by
  rw [cmp_gt_zero, one_f32, zero_f32]
  unfold step Scalar.select
  by_cases h : 0 < a <;> simp [h]

/-- The straight-through form: with `t = tanh a` and `q` the 0/1 indicator of `t > 0`, `t + (q - t)` is the threshold
    of `a`: `t` is finite, so it cancels, and `t > 0` exactly when `a > 0`. -/
theorem ste_forward (a : EReal) :
    Ideal.tanh a + ((((Ideal.cmp .ogt (Ideal.tanh a) (Ideal.ofBits .f32 0x00000000#32)).toNat : ℝ) : EReal) - Ideal.tanh a)
      = step a := by
  rw [cmp_gt_zero]
  obtain ⟨t, ht⟩ := tanh_real a
  unfold step
  by_cases h : 0 < a
  · rw [if_pos ((tanh_pos_iff a).mpr h), if_pos h, ht]
    show (t : EReal) + ((((1 : ℕ) : ℝ) : EReal) - (t : EReal)) = 1
    norm_cast
    ring_nf
  · rw [if_neg (fun h' => h ((tanh_pos_iff a).mp h')), if_neg h, ht]
    show (t : EReal) + ((((0 : ℕ) : ℝ) : EReal) - (t : EReal)) = 0
    norm_cast
    ring_nf

/-! ## A sum over the features, block by block -/

/-- A sum over 4096 consecutive naturals is the sum over four blocks of 1024 of the blocks' sums. -/
theorem sum_blocks (f : ℕ → EReal) :
    ∑ k : Fin 4096, f k.val = ∑ s ∈ Finset.range 4, ∑ k : Fin 1024, f (1024 * s + k.val) := by
  have e : ∀ (c : ℕ), ∑ k : Fin 1024, f (c + k.val) = ∑ k ∈ Finset.range 1024, f (c + k) :=
    fun c => (Finset.sum_range (fun k => f (c + k))).symm
  have h4 : ∑ k : Fin 4096, f k.val = ∑ k ∈ Finset.range (1024 + 1024 + 1024 + 1024), f k :=
    (Finset.sum_range f).symm
  have r4 : ∑ s ∈ Finset.range 4, ∑ k : Fin 1024, f (1024 * s + k.val)
      = ∑ k ∈ Finset.range 1024, f (1024 * 0 + k) + ∑ k ∈ Finset.range 1024, f (1024 * 1 + k)
        + ∑ k ∈ Finset.range 1024, f (1024 * 2 + k) + ∑ k ∈ Finset.range 1024, f (1024 * 3 + k) := by
    rw [Finset.sum_range_succ, Finset.sum_range_succ, Finset.sum_range_succ, Finset.sum_range_one, e, e, e, e]
  rw [r4, h4, Finset.sum_range_add, Finset.sum_range_add, Finset.sum_range_add]
  simp only [Nat.mul_zero, Nat.zero_add, Nat.mul_one]

/-- Entry `(i, j)` of `x · wᵀ` is the sum of its terms. -/
theorem rowdot_eq_sum_term (x : Mat 8192 4096) (w : Mat 4096 4096) (i : Fin 8192) (j : Fin 4096) :
    rowdot x w i j = ∑ k : Fin 4096, term x w i j k.val := by
  unfold rowdot term
  exact Finset.sum_congr rfl fun k _ => by rw [dif_pos k.isLt]

/-- Entry `(i, j)` of `x · wᵀ`, block by block along the features. -/
theorem rowdot_blocks (x : Mat 8192 4096) (w : Mat 4096 4096) (i : Fin 8192) (j : Fin 4096) :
    rowdot x w i j = ∑ s ∈ Finset.range 4, ∑ k : Fin 1024, term x w i j (1024 * s + k.val) := by
  rw [rowdot_eq_sum_term, sum_blocks (term x w i j)]

/-- The sum of two contractions, block by block, the two blocks' sums added within each block: the order in which a
    kernel that walks the feature blocks accumulates them. -/
theorem pair_blocks (x x' : Mat 8192 4096) (w w' : Mat 4096 4096) (i : Fin 8192) (j : Fin 4096) :
    rowdot x w i j + rowdot x' w' i j
      = 0 + ∑ s ∈ Finset.range 4, ((∑ k : Fin 1024, term x w i j (1024 * s + k.val))
          + ∑ k : Fin 1024, term x' w' i j (1024 * s + k.val)) := by
  rw [rowdot_blocks, rowdot_blocks, Finset.sum_add_distrib, zero_add]

end Cert.BinaryLinear

end
-- ==== Proof.RefSide.lean ====
import proofs.«178758_j70987219468443_2_alg».proof.Defs
import proofs.«178758_j70987219468443_2_alg».proof.Proof.Gen.ReferenceIdeal.Read
import proofs.«178758_j70987219468443_2_alg».proof.Proof.Spec

noncomputable section

open Idealize.ShloMosaic Idealize.ShloMosaic.TcCoe Idealize.SL.Sem

namespace Cert.ReferenceIdeal.RefValue

open Cert.ReferenceIdeal Cert.ReferenceIdeal.Read Cert.BinaryLinear

/-! ## The binarized weights

Each weight array goes through `t = tanh w`, `q` the 0/1 indicator of `t > 0`, and `t + (q - t)`: entry by entry that
is the threshold `step w`. -/

theorem v5_eq (x : S4096x4096.Idx → EReal) (i : S4096x4096.Idx) :
    val_main_v5 (F := Ideal) x i = step (x i) := by
  rw [val_main_v5_apply, val_main_v4_apply, val_main_v3_apply, val_main_v2_apply, val_main_v1_apply,
    val_main_cst_apply, val_main_v0_apply]
  exact ste_forward (x i)

theorem v11_eq (x : S4096x4096.Idx → EReal) (i : S4096x4096.Idx) :
    val_main_v11 (F := Ideal) x i = step (x i) := by
  rw [val_main_v11_apply, val_main_v10_apply, val_main_v9_apply, val_main_v8_apply, val_main_v7_apply,
    val_main_cst_0_apply, val_main_v6_apply]
  exact ste_forward (x i)

theorem v17_eq (x : S4096x4096.Idx → EReal) (i : S4096x4096.Idx) :
    val_main_v17 (F := Ideal) x i = step (x i) := by
  rw [val_main_v17_apply, val_main_v16_apply, val_main_v15_apply, val_main_v14_apply, val_main_v13_apply,
    val_main_cst_1_apply, val_main_v12_apply]
  exact ste_forward (x i)

theorem v23_eq (x : S4096x4096.Idx → EReal) (i : S4096x4096.Idx) :
    val_main_v23 (F := Ideal) x i = step (x i) := by
  rw [val_main_v23_apply, val_main_v22_apply, val_main_v21_apply, val_main_v20_apply, val_main_v19_apply,
    val_main_cst_2_apply, val_main_v18_apply]
  exact ste_forward (x i)

/-- The real weight: the difference of the two thresholds. -/
theorem v24_eq (x2 x3 : S4096x4096.Idx → EReal) (i : S4096x4096.Idx) :
    val_main_v24 (F := Ideal) x2 x3 i = sgnw (x2 i) (x3 i) := by
  rw [val_main_v24_apply, v5_eq, v11_eq]
  rfl

/-- The imaginary weight: the difference of the two thresholds. -/
theorem v25_eq (x4 x5 : S4096x4096.Idx → EReal) (i : S4096x4096.Idx) :
    val_main_v25 (F := Ideal) x4 x5 i = sgnw (x4 i) (x5 i) := by
  rw [val_main_v25_apply, v17_eq, v23_eq]
  rfl

/-! ## The four products

Each product contracts the feature axis of `x` with the first axis of a transposed weight, so its entry `(p, q)` is
`∑ k, x (p, k) * w (q, k)`: the entry of `x · wᵀ`. -/

/-- A contraction of `x` with the transpose `wt` of `w`, read at `(p, q)`, is the entry `(p, q)` of `x · wᵀ`. -/
theorem dot_eq (x : S8192x4096.Idx → EReal) (w wt : S4096x4096.Idx → EReal)
    (hw : ∀ j, wt j = w (idx_main_v26 j)) (p : Fin 8192) (q : Fin 4096) :
    ∑ k : Fin 4096, x (lidx_main_v27 (ValueIdx.ix2 p q) k) * wt (ridx_main_v27 (ValueIdx.ix2 p q) k)
      = rowdot x w p q := by
  unfold rowdot
  refine Finset.sum_congr rfl fun k _ => ?_
  have el : lidx_main_v27 (ValueIdx.ix2 p q) k = ValueIdx.ix2 p k :=
    funext fun a => Fin.ext (by match a with | ⟨0, _⟩ => rfl | ⟨1, _⟩ => rfl)
  have er : idx_main_v26 (ridx_main_v27 (ValueIdx.ix2 p q) k) = ValueIdx.ix2 q k :=
    funext fun a => Fin.ext (by match a with | ⟨0, _⟩ => rfl | ⟨1, _⟩ => rfl)
  rw [hw, el, er]

theorem v27_eq (x0 : S8192x4096.Idx → EReal) (x2 x3 : S4096x4096.Idx → EReal) (p : Fin 8192) (q : Fin 4096) :
    val_main_v27 (F := Ideal) x0 x2 x3 (ValueIdx.ix2 p q) = rowdot x0 (fun i => sgnw (x2 i) (x3 i)) p q := by
  rw [val_main_v27_apply]
  exact dot_eq x0 _ _ (fun j => by rw [val_main_v26_apply, v24_eq]) p q

theorem v29_eq (x0 : S8192x4096.Idx → EReal) (x4 x5 : S4096x4096.Idx → EReal) (p : Fin 8192) (q : Fin 4096) :
    val_main_v29 (F := Ideal) x0 x4 x5 (ValueIdx.ix2 p q) = rowdot x0 (fun i => sgnw (x4 i) (x5 i)) p q := by
  rw [val_main_v29_apply]
  exact dot_eq x0 _ _ (fun j => by rw [val_main_v28_apply, v25_eq]) p q

theorem v31_eq (x1 : S8192x4096.Idx → EReal) (x2 x3 : S4096x4096.Idx → EReal) (p : Fin 8192) (q : Fin 4096) :
    val_main_v31 (F := Ideal) x1 x2 x3 (ValueIdx.ix2 p q) = rowdot x1 (fun i => sgnw (x2 i) (x3 i)) p q := by
  rw [val_main_v31_apply]
  exact dot_eq x1 _ _ (fun j => by rw [val_main_v30_apply, v24_eq]) p q

theorem v33_eq (x1 : S8192x4096.Idx → EReal) (x4 x5 : S4096x4096.Idx → EReal) (p : Fin 8192) (q : Fin 4096) :
    val_main_v33 (F := Ideal) x1 x4 x5 (ValueIdx.ix2 p q) = rowdot x1 (fun i => sgnw (x4 i) (x5 i)) p q := by
  rw [val_main_v33_apply]
  exact dot_eq x1 _ _ (fun j => by rw [val_main_v32_apply, v25_eq]) p q

/-! ## The two results -/

theorem ref_real (x0 x1 : S8192x4096.Idx → EReal) (x2 x3 x4 x5 : S4096x4096.Idx → EReal) :
    val_main_v34 (F := Ideal) x0 x1 x2 x3 x4 x5
      = yReal x0 x1 (fun i => sgnw (x2 i) (x3 i)) (fun i => sgnw (x4 i) (x5 i)) := by
  funext i
  obtain ⟨p, q, rfl⟩ : ∃ (p : Fin 8192) (q : Fin 4096), i = ValueIdx.ix2 p q := ⟨i 0, i 1, ValueIdx.eq_ix2 i⟩
  rw [val_main_v34_apply, v27_eq, v33_eq]
  rfl

theorem ref_cplx (x0 x1 : S8192x4096.Idx → EReal) (x2 x3 x4 x5 : S4096x4096.Idx → EReal) :
    val_main_v35 (F := Ideal) x0 x1 x2 x3 x4 x5
      = yCplx x0 x1 (fun i => sgnw (x2 i) (x3 i)) (fun i => sgnw (x4 i) (x5 i)) := by
  funext i
  obtain ⟨p, q, rfl⟩ : ∃ (p : Fin 8192) (q : Fin 4096), i = ValueIdx.ix2 p q := ⟨i 0, i 1, ValueIdx.eq_ix2 i⟩
  rw [val_main_v35_apply, v29_eq, v31_eq]
  rfl

end Cert.ReferenceIdeal.RefValue

end
-- ==== Proof.Binarize.lean ====
/-
  The weight-binarizing region, read as one function of its arguments.

  The region walks an 8 x 8 grid of points. At the point in block row `p` and block column `q` it reads the
  512 x 512 blocks at block position `(p, q)` of its four 4096 x 4096 weight arrays and writes the blocks at the
  same position of its two outputs: entry by entry, the threshold at zero of a positive-part weight minus the
  threshold at zero of the matching negative-part weight, `sgnw p n = step p - step n`.

  Three facts give the whole arrays. The body's result at a block entry is `sgnw` of the two input blocks' entries
  there (comparison with zero, selection of 1 or 0, subtraction; the narrowing to the shorter float format is the
  identity on the extended reals). Every window has the same index map, so a block entry sits at the same array
  entry in the inputs and in the output: what a point writes back is its block of the entrywise `sgnw` of the
  argument arrays. And the 64 blocks tile the array: the entry in row `r`, column `s` is in the block at block
  position `(r / 512, s / 512)`. Hence each output array ends as the entrywise `sgnw` of its two arguments.
-/
import proofs.«178758_j70987219468443_2_alg».proof.Proof.Gen.KernelIdeal.Frame
import proofs.«178758_j70987219468443_2_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Binarize

open Cert.KernelIdeal Cert.KernelIdeal.Gen Cert.BinaryLinear

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-! ## The body's result at a block entry -/

/-- The first output's payload at an entry: the threshold of the first block's entry minus the threshold of the
    second block's entry. -/
theorem pay1_apply (x0 x1 : FVec Ideal S512x512 .f32) (j : S512x512.Idx) :
    (k0_pay1 (F := Ideal) x0 x1) j = sgnw (x0 j) (x1 j) := by
  unfold k0_pay1
  show Scalar.select (Ideal.cmp .ogt (x0 j) (Ideal.ofBits .f32 0x00000000#32)) (Ideal.ofBits .f32 0x3F800000#32)
        (Ideal.ofBits .f32 0x00000000#32)
      - Scalar.select (Ideal.cmp .ogt (x1 j) (Ideal.ofBits .f32 0x00000000#32)) (Ideal.ofBits .f32 0x3F800000#32)
        (Ideal.ofBits .f32 0x00000000#32) = _
  rw [select_step, select_step]
  rfl

/-- The second output's payload at an entry: the same difference of thresholds, of the other two blocks. -/
theorem pay2_apply (x0 x1 : FVec Ideal S512x512 .f32) (j : S512x512.Idx) :
    (k0_pay2 (F := Ideal) x0 x1) j = sgnw (x0 j) (x1 j) := by
  unfold k0_pay2
  show Scalar.select (Ideal.cmp .ogt (x0 j) (Ideal.ofBits .f32 0x00000000#32)) (Ideal.ofBits .f32 0x3F800000#32)
        (Ideal.ofBits .f32 0x00000000#32)
      - Scalar.select (Ideal.cmp .ogt (x1 j) (Ideal.ofBits .f32 0x00000000#32)) (Ideal.ofBits .f32 0x3F800000#32)
        (Ideal.ofBits .f32 0x00000000#32) = _
  rw [select_step, select_step]
  rfl

/-! ## The index maps -/

/-- Each input window moves with the output window it feeds: at every point their block positions agree on both
    axes (checked at each of the 64 points). -/
theorem same_block : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_5.index t (0 : Fin 2) ∧ win0_2.index t (1 : Fin 2) = win0_5.index t (1 : Fin 2)
    ∧ win0_3.index t (0 : Fin 2) = win0_5.index t (0 : Fin 2) ∧ win0_3.index t (1 : Fin 2) = win0_5.index t (1 : Fin 2) :=
  (by decide +kernel : ∀ t : Fin grid0.N, _)

/-- Every block position of the 8 x 8 tiling is some point's, for the first output. -/
theorem every_block_real : ∀ (q0 : Fin 8) (q1 : Fin 8), ∃ t : Fin cfg0.N, win0_4.index t = ![q0.val, q1.val] :=
  (by decide +kernel : ∀ (q0 : Fin 8) (q1 : Fin 8), ∃ t : Fin grid0.N, win0_4.index t = ![q0.val, q1.val])

/-- Every block position of the 8 x 8 tiling is some point's, for the second output. -/
theorem every_block_cplx : ∀ (q0 : Fin 8) (q1 : Fin 8), ∃ t : Fin cfg0.N, win0_5.index t = ![q0.val, q1.val] :=
  (by decide +kernel : ∀ (q0 : Fin 8) (q1 : Fin 8), ∃ t : Fin grid0.N, win0_5.index t = ![q0.val, q1.val])

/-! ## What a point writes back -/

/-- Point `t` writes back, to the first output, its block of the entrywise `sgnw` of the first two weight arrays:
    a block entry's array position is block position times 512 plus its own coordinate, in the inputs as in the
    output. -/
theorem flushed_real (c : Dev nD) (t : Fin cfg0.N) :
    (dat0 (F := Ideal) V c).flushed 4 t
      = ((cfg0.win 4).blk t).view.read (Elt Ideal) (fun i => sgnw (V c main_arg2 i) (V c main_arg3 i)) := by
  show (cfg0.win 4).cut (grid0.coords t) ((dat0 V c).after 4 t) = _
  rw [after0_4]
  unfold out0_4
  rw [View.canon_unit_zero zero_offsets]
  simp only [View.ld_unit_zero (S := S512x512) zero_offsets]
  obtain ⟨e0, e1, e2, e3, -, -, -, -⟩ := same_block t
  funext j
  show k0_pay1 (F := Ideal) (iblk0 V c 0 t) (iblk0 V c 1 t) j
    = sgnw (V c main_arg2 (((cfg0.win 4).blk t).view.emb j)) (V c main_arg3 (((cfg0.win 4).blk t).view.emb j))
  rw [pay1_apply]
  show sgnw (V c main_arg2 (((cfg0.win 0).blk t).view.emb j)) (V c main_arg3 (((cfg0.win 1).blk t).view.emb j)) = _
  have h0 : ((cfg0.win 0).blk t).view.emb j = ((cfg0.win 4).blk t).view.emb j := by
    funext a; apply Fin.ext
    match a with
    | ⟨0, _⟩ => show win0_0.index t (0 : Fin 2) * 512 + 1 * (j 0).val = win0_4.index t (0 : Fin 2) * 512 + 1 * (j 0).val; rw [e0]
    | ⟨1, _⟩ => show win0_0.index t (1 : Fin 2) * 512 + 1 * (j 1).val = win0_4.index t (1 : Fin 2) * 512 + 1 * (j 1).val; rw [e1]
  have h1 : ((cfg0.win 1).blk t).view.emb j = ((cfg0.win 4).blk t).view.emb j := by
    funext a; apply Fin.ext
    match a with
    | ⟨0, _⟩ => show win0_1.index t (0 : Fin 2) * 512 + 1 * (j 0).val = win0_4.index t (0 : Fin 2) * 512 + 1 * (j 0).val; rw [e2]
    | ⟨1, _⟩ => show win0_1.index t (1 : Fin 2) * 512 + 1 * (j 1).val = win0_4.index t (1 : Fin 2) * 512 + 1 * (j 1).val; rw [e3]
  rw [h0, h1]

/-- Point `t` writes back, to the second output, its block of the entrywise `sgnw` of the last two weight arrays. -/
theorem flushed_cplx (c : Dev nD) (t : Fin cfg0.N) :
    (dat0 (F := Ideal) V c).flushed 5 t
      = ((cfg0.win 5).blk t).view.read (Elt Ideal) (fun i => sgnw (V c main_arg4 i) (V c main_arg5 i)) := by
  show (cfg0.win 5).cut (grid0.coords t) ((dat0 V c).after 5 t) = _
  rw [after0_5]
  unfold out0_5
  rw [View.canon_unit_zero zero_offsets]
  simp only [View.ld_unit_zero (S := S512x512) zero_offsets]
  obtain ⟨-, -, -, -, e0, e1, e2, e3⟩ := same_block t
  funext j
  show k0_pay2 (F := Ideal) (iblk0 V c 2 t) (iblk0 V c 3 t) j
    = sgnw (V c main_arg4 (((cfg0.win 5).blk t).view.emb j)) (V c main_arg5 (((cfg0.win 5).blk t).view.emb j))
  rw [pay2_apply]
  show sgnw (V c main_arg4 (((cfg0.win 2).blk t).view.emb j)) (V c main_arg5 (((cfg0.win 3).blk t).view.emb j)) = _
  have h0 : ((cfg0.win 2).blk t).view.emb j = ((cfg0.win 5).blk t).view.emb j := by
    funext a; apply Fin.ext
    match a with
    | ⟨0, _⟩ => show win0_2.index t (0 : Fin 2) * 512 + 1 * (j 0).val = win0_5.index t (0 : Fin 2) * 512 + 1 * (j 0).val; rw [e0]
    | ⟨1, _⟩ => show win0_2.index t (1 : Fin 2) * 512 + 1 * (j 1).val = win0_5.index t (1 : Fin 2) * 512 + 1 * (j 1).val; rw [e1]
  have h1 : ((cfg0.win 3).blk t).view.emb j = ((cfg0.win 5).blk t).view.emb j := by
    funext a; apply Fin.ext
    match a with
    | ⟨0, _⟩ => show win0_3.index t (0 : Fin 2) * 512 + 1 * (j 0).val = win0_5.index t (0 : Fin 2) * 512 + 1 * (j 0).val; rw [e2]
    | ⟨1, _⟩ => show win0_3.index t (1 : Fin 2) * 512 + 1 * (j 1).val = win0_5.index t (1 : Fin 2) * 512 + 1 * (j 1).val; rw [e3]
  rw [h0, h1]

/-! ## The blocks tile the array -/

/-- An entry of the first output is in point `t`'s block iff, on each axis, its coordinate lies in the 512 positions
    starting at the block position times 512. -/
theorem mem_block_real (t : Fin cfg0.N) (i : S4096x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0_0).slice (win0_4.rect t)).set ↔ _
  rw [View.set_slice_whole, Rect.mem_set_unit]
  exact Iff.rfl

/-- The same for the second output. -/
theorem mem_block_cplx (t : Fin cfg0.N) (i : S4096x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v0_1).slice (win0_5.rect t)).set ↔ _
  rw [View.set_slice_whole, Rect.mem_set_unit]
  exact Iff.rfl

/-- Every entry `(r, s)` of the first output is in the block at block position `(r / 512, s / 512)`, which some
    point writes back. -/
theorem covered_real (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := every_block_real ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  refine ⟨t, flush0_4 t, ?_⟩
  rw [mem_block_real]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- Every entry of the second output likewise. -/
theorem covered_cplx (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := every_block_cplx ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_block_cplx]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-! ## The arrays after the region -/

/-- The first output ends as the entrywise signed binary weight of the first pair of weight arrays. -/
theorem weights_real (c : Dev nD) :
    (dat0 (F := Ideal) V c).arrAt 4 cfg0.N = fun i => sgnw (V c main_arg2 i) (V c main_arg3 i) :=
  (dat0 (F := Ideal) V c).arrAt_eq_of_cover 4 _ (fun t _ => flushed_real V c t) covered_real

/-- The second output ends as the entrywise signed binary weight of the second pair of weight arrays. -/
theorem weights_cplx (c : Dev nD) :
    (dat0 (F := Ideal) V c).arrAt 5 cfg0.N = fun i => sgnw (V c main_arg4 i) (V c main_arg5 i) :=
  (dat0 (F := Ideal) V c).arrAt_eq_of_cover 5 _ (fun t _ => flushed_cplx V c t) covered_cplx

end Cert.KernelIdeal.Binarize

end
-- ==== Proof.CastInputs.lean ====
/-
  The input-casting region, read as one function of its arguments.

  The region walks 64 points. At point `p` it reads rows `128 p` to `128 p + 127` (all 4096 columns) of its two
  8192 x 4096 input arrays and writes the same rows of its two outputs, each entry narrowed to the shorter float
  format. On the extended reals the narrowing is the identity, every window has the same index map, and the 64 row
  bands tile the array (row `r` is in band `r / 128`), so each output array ends equal to its input array.
-/
import proofs.«178758_j70987219468443_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.CastInputs

open Cert.KernelIdeal Cert.KernelIdeal.Gen

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-! ## The body's result at a block entry -/

/-- The first output's payload is its block unchanged: narrowing is the identity on the extended reals. -/
theorem pay1_apply (x : FVec Ideal S128x4096 .f32) (j : S128x4096.Idx) : (k1_pay1 (F := Ideal) x) j = x j := rfl

/-- The second output's payload is its block unchanged. -/
theorem pay2_apply (x : FVec Ideal S128x4096 .f32) (j : S128x4096.Idx) : (k1_pay2 (F := Ideal) x) j = x j := rfl

/-! ## The index maps -/

/-- Each input window moves with the output window it feeds: at every point their block positions agree on both
    axes (checked at each of the 64 points). -/
theorem same_block : ∀ t : Fin cfg1.N,
    win1_0.index t (0 : Fin 2) = win1_2.index t (0 : Fin 2) ∧ win1_0.index t (1 : Fin 2) = win1_2.index t (1 : Fin 2)
    ∧ win1_1.index t (0 : Fin 2) = win1_3.index t (0 : Fin 2) ∧ win1_1.index t (1 : Fin 2) = win1_3.index t (1 : Fin 2) :=
  (by decide +kernel : ∀ t : Fin grid1.N, _)

/-- Every one of the 64 row bands is some point's, for the first output. -/
theorem every_band_real : ∀ q0 : Fin 64, ∃ t : Fin cfg1.N, win1_2.index t = ![q0.val, 0] :=
  (by decide +kernel : ∀ q0 : Fin 64, ∃ t : Fin grid1.N, win1_2.index t = ![q0.val, 0])

/-- Every one of the 64 row bands is some point's, for the second output. -/
theorem every_band_cplx : ∀ q0 : Fin 64, ∃ t : Fin cfg1.N, win1_3.index t = ![q0.val, 0] :=
  (by decide +kernel : ∀ q0 : Fin 64, ∃ t : Fin grid1.N, win1_3.index t = ![q0.val, 0])

/-! ## What a point writes back -/

/-- Point `t` writes back, to the first output, its band of the first input array: a band entry's row is the band
    position times 128 plus its own row, in the input as in the output. -/
theorem flushed_real (c : Dev nD) (t : Fin cfg1.N) :
    (dat1 (F := Ideal) V c).flushed 2 t
      = ((cfg1.win 2).blk t).view.read (Elt Ideal) (fun i => V c main_arg0 i) := by
  show (cfg1.win 2).cut (grid1.coords t) ((dat1 V c).after 2 t) = _
  rw [after1_2]
  unfold out1_2
  rw [View.canon_unit_zero zero_offsets]
  simp only [View.ld_unit_zero (S := S128x4096) zero_offsets]
  obtain ⟨e0, e1, -, -⟩ := same_block t
  funext j
  show k1_pay1 (F := Ideal) (iblk1 V c 0 t) j = V c main_arg0 (((cfg1.win 2).blk t).view.emb j)
  rw [pay1_apply]
  show V c main_arg0 (((cfg1.win 0).blk t).view.emb j) = _
  have h0 : ((cfg1.win 0).blk t).view.emb j = ((cfg1.win 2).blk t).view.emb j := by
    funext a; apply Fin.ext
    match a with
    | ⟨0, _⟩ => show win1_0.index t (0 : Fin 2) * 128 + 1 * (j 0).val = win1_2.index t (0 : Fin 2) * 128 + 1 * (j 0).val; rw [e0]
    | ⟨1, _⟩ => show win1_0.index t (1 : Fin 2) * 4096 + 1 * (j 1).val = win1_2.index t (1 : Fin 2) * 4096 + 1 * (j 1).val; rw [e1]
  rw [h0]

/-- Point `t` writes back, to the second output, its band of the second input array. -/
theorem flushed_cplx (c : Dev nD) (t : Fin cfg1.N) :
    (dat1 (F := Ideal) V c).flushed 3 t
      = ((cfg1.win 3).blk t).view.read (Elt Ideal) (fun i => V c main_arg1 i) := by
  show (cfg1.win 3).cut (grid1.coords t) ((dat1 V c).after 3 t) = _
  rw [after1_3]
  unfold out1_3
  rw [View.canon_unit_zero zero_offsets]
  simp only [View.ld_unit_zero (S := S128x4096) zero_offsets]
  obtain ⟨-, -, e0, e1⟩ := same_block t
  funext j
  show k1_pay2 (F := Ideal) (iblk1 V c 1 t) j = V c main_arg1 (((cfg1.win 3).blk t).view.emb j)
  rw [pay2_apply]
  show V c main_arg1 (((cfg1.win 1).blk t).view.emb j) = _
  have h0 : ((cfg1.win 1).blk t).view.emb j = ((cfg1.win 3).blk t).view.emb j := by
    funext a; apply Fin.ext
    match a with
    | ⟨0, _⟩ => show win1_1.index t (0 : Fin 2) * 128 + 1 * (j 0).val = win1_3.index t (0 : Fin 2) * 128 + 1 * (j 0).val; rw [e0]
    | ⟨1, _⟩ => show win1_1.index t (1 : Fin 2) * 4096 + 1 * (j 1).val = win1_3.index t (1 : Fin 2) * 4096 + 1 * (j 1).val; rw [e1]
  rw [h0]

/-! ## The bands tile the array -/

/-- An entry of the first output is in point `t`'s band iff, on each axis, its coordinate lies in the band's range:
    128 rows starting at the band position times 128, and all 4096 columns. -/
theorem mem_band_real (t : Fin cfg1.N) (i : S8192x4096.Idx) :
    i ∈ ((cfg1.win 2).blk t).view.set ↔ ∀ a : Fin 2, win1_2.index t a * S128x4096.size a ≤ (i a).val ∧ (i a).val < win1_2.index t a * S128x4096.size a + S128x4096.size a := by
  show i ∈ ((View.whole main_v1_0).slice (win1_2.rect t)).set ↔ _
  rw [View.set_slice_whole, Rect.mem_set_unit]
  exact Iff.rfl

/-- The same for the second output. -/
theorem mem_band_cplx (t : Fin cfg1.N) (i : S8192x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v1_1).slice (win1_3.rect t)).set ↔ _
  rw [View.set_slice_whole, Rect.mem_set_unit]
  exact Iff.rfl

/-- Every entry in row `r` of the first output is in band `r / 128`, which some point writes back. -/
theorem covered_real (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := every_band_real ⟨(i 0).val / 128, by omega⟩
  have q0 : win1_2.index t (0 : Fin 2) = (i 0).val / 128 := congrFun ht 0
  have q1 : win1_2.index t (1 : Fin 2) = 0 := congrFun ht 1
  refine ⟨t, flush1_2 t, ?_⟩
  rw [mem_band_real]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 4096 ≤ (i 1).val ∧ (i 1).val < win1_2.index t (1 : Fin 2) * 4096 + 4096; omega

/-- Every entry of the second output likewise. -/
theorem covered_cplx (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := every_band_cplx ⟨(i 0).val / 128, by omega⟩
  have q0 : win1_3.index t (0 : Fin 2) = (i 0).val / 128 := congrFun ht 0
  have q1 : win1_3.index t (1 : Fin 2) = 0 := congrFun ht 1
  refine ⟨t, flush1_3 t, ?_⟩
  rw [mem_band_cplx]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 4096 ≤ (i 1).val ∧ (i 1).val < win1_3.index t (1 : Fin 2) * 4096 + 4096; omega

/-! ## The arrays after the region -/

/-- The first output ends equal to the first input array. -/
theorem inputs_real (c : Dev nD) :
    (dat1 (F := Ideal) V c).arrAt 2 cfg1.N = fun i => V c main_arg0 i :=
  (dat1 (F := Ideal) V c).arrAt_eq_of_cover 2 _ (fun t _ => flushed_real V c t) covered_real

/-- The second output ends equal to the second input array. -/
theorem inputs_cplx (c : Dev nD) :
    (dat1 (F := Ideal) V c).arrAt 3 cfg1.N = fun i => V c main_arg1 i :=
  (dat1 (F := Ideal) V c).arrAt_eq_of_cover 3 _ (fun t _ => flushed_cplx V c t) covered_cplx

end Cert.KernelIdeal.CastInputs

end
-- ==== Proof.MatmulBody.lean ====
/-
  What one grid point of the blocked matrix product leaves in its two output blocks.

  At a grid point the body holds a row block of each input (`x0`, `x1`: 512 rows by 1024 features) and a row block of each
  binarized weight (`x2`, `x3`: 1024 output columns by 1024 features). At the first feature block of a run it clears
  both output blocks; at every feature block it adds two products into each output block, one after the other:

      real block  :=  (real block + x0 · x2ᵀ) + x1 · x3ᵀ
      imag block  :=  (imag block + x0 · x3ᵀ) + x1 · x2ᵀ

  Every store writes a whole block, so what a block holds after the body is the payload of its last store, with the
  earlier stores read back through the loads between them.
-/
import proofs.«178758_j70987219468443_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.MatmulBody

open Cert.KernelIdeal Cert.KernelIdeal.Gen

variable {F : FTy → Type} [FloatOps F]

theorem hz : (![0, 0] : Fin 2 → Nat) = fun _ => 0 := funext fun a => by fin_cases a <;> rfl

/-- A load of a whole block after several whole-block stores reads the last store's payload. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The cleared block. -/
abbrev zeroBlk : FVec F S512x1024 .f32 := broadcast S512x1024 (Scalar.ofBits .f32 0x00000000#32)

/-- The product of an input row block with a weight row block, contracted over the block's 1024 features. -/
abbrev mm (x : Vec F S512x1024 .bf16) (w : Vec F S1024x1024 .bf16) : FVec F S512x1024 .f32 :=
  matmul dot_S512x1024_S1024x1024_S512x1024_1_1_0_0_n_n none x w (constant S512x1024 .f32 0x00000000#32)

/-- The first point of a run, real block: cleared, then the two products added. -/
theorem first_real (c : Dev nD) (i : grid2.Coords) (a3 : Memref sig .tc .vmem S512x1024 .bf16) (h3 : a3.IsWhole) (a4 : Memref sig .tc .vmem S512x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S512x1024 .f32) (h7 : a7.IsWhole) (a8 : Memref sig .tc .vmem S512x1024 .f32) (h8 : a8.IsWhole) (hc : cond2_0 i) (x0 x1 : Vec F S512x1024 .bf16) (x2 x3 : Vec F S1024x1024 .bf16) :
    out2_A_4 c i a3 h3 a4 h4 a5 h5 a6 h6 a7 h7 a8 h8 hc x0 x1 x2 x3 = addf (addf zeroBlk (mm x0 x2)) (mm x1 x3) := by
  unfold out2_A_4
  rw [View.read_writes_eq_canon _ _ _ (cover2_A_4 c i a3 h3 a4 h4 a5 h5 a6 h6 a7 h7 a8 h8 hc x0 x1 x2 x3)]
  unfold kernelRun2_A
  dsimp only
  sl_unfold_words
  rw [View.canon_cons_unit_zero (S := S512x1024) hz, readCov_cons_whole (S := S512x1024) _ hz,
    View.readCov_unit_zero (S := S512x1024) _ hz]
  unfold k2_pay9 k2_pay8 k2_pay2 k2_pay4 k2_pay5 k2_pay6 k2_pay7
  simp only [View.readAt_eq_ld, h3.read_unread, h4.read_unread, h5.read_unread, h6.read_unread,
    View.ld_unit_zero (S := S512x1024) hz, View.ld_unit_zero (S := S1024x1024) hz, shapeCast_self]

/-- The first point of a run, imaginary block. -/
theorem first_imag (c : Dev nD) (i : grid2.Coords) (a3 : Memref sig .tc .vmem S512x1024 .bf16) (h3 : a3.IsWhole) (a4 : Memref sig .tc .vmem S512x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S512x1024 .f32) (h7 : a7.IsWhole) (a8 : Memref sig .tc .vmem S512x1024 .f32) (h8 : a8.IsWhole) (hc : cond2_0 i) (x0 x1 : Vec F S512x1024 .bf16) (x2 x3 : Vec F S1024x1024 .bf16) :
    out2_A_5 c i a3 h3 a4 h4 a5 h5 a6 h6 a7 h7 a8 h8 hc x0 x1 x2 x3 = addf (addf zeroBlk (mm x0 x3)) (mm x1 x2) := by
  unfold out2_A_5
  rw [View.read_writes_eq_canon _ _ _ (cover2_A_5 c i a3 h3 a4 h4 a5 h5 a6 h6 a7 h7 a8 h8 hc x0 x1 x2 x3)]
  unfold kernelRun2_A
  dsimp only
  sl_unfold_words
  rw [View.canon_cons_unit_zero (S := S512x1024) hz, readCov_cons_whole (S := S512x1024) _ hz,
    View.readCov_unit_zero (S := S512x1024) _ hz]
  unfold k2_pay1 k2_pay10 k2_pay3 k2_pay4 k2_pay5 k2_pay6 k2_pay7
  simp only [View.readAt_eq_ld, h3.read_unread, h4.read_unread, h5.read_unread, h6.read_unread,
    View.ld_unit_zero (S := S512x1024) hz, View.ld_unit_zero (S := S1024x1024) hz, shapeCast_self]

/-- A later point of a run, real block: the two products added to what the point before left. -/
theorem next_real (c : Dev nD) (i : grid2.Coords) (a3 : Memref sig .tc .vmem S512x1024 .bf16) (h3 : a3.IsWhole) (a4 : Memref sig .tc .vmem S512x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S512x1024 .f32) (h7 : a7.IsWhole) (a8 : Memref sig .tc .vmem S512x1024 .f32) (h8 : a8.IsWhole) (hc : ¬cond2_0 i) (x0 x1 : Vec F S512x1024 .bf16) (x2 x3 : Vec F S1024x1024 .bf16) (xo4 xo5 : Vec F S512x1024 .f32) :
    out2_B_4 c i a3 h3 a4 h4 a5 h5 a6 h6 a7 h7 a8 h8 hc x0 x1 x2 x3 xo4 xo5 = addf (addf xo4 (mm x0 x2)) (mm x1 x3) := by
  unfold out2_B_4
  rw [View.read_writes_eq_canon _ _ _ (cover2_B_4 c i a3 h3 a4 h4 a5 h5 a6 h6 a7 h7 a8 h8 hc x0 x1 x2 x3 xo4 xo5)]
  unfold kernelRun2_B
  dsimp only
  sl_unfold_words
  rw [View.canon_cons_unit_zero (S := S512x1024) hz, View.readCov_unit_zero (S := S512x1024) _ hz]
  unfold k2_pay9 k2_pay8 k2_pay4 k2_pay5 k2_pay6 k2_pay7
  simp only [View.readAt_eq_ld, h3.read_unread, h4.read_unread, h5.read_unread, h6.read_unread, h7.read_unread,
    View.ld_unit_zero (S := S512x1024) hz, View.ld_unit_zero (S := S1024x1024) hz, shapeCast_self]

/-- A later point of a run, imaginary block. -/
theorem next_imag (c : Dev nD) (i : grid2.Coords) (a3 : Memref sig .tc .vmem S512x1024 .bf16) (h3 : a3.IsWhole) (a4 : Memref sig .tc .vmem S512x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S512x1024 .f32) (h7 : a7.IsWhole) (a8 : Memref sig .tc .vmem S512x1024 .f32) (h8 : a8.IsWhole) (hc : ¬cond2_0 i) (x0 x1 : Vec F S512x1024 .bf16) (x2 x3 : Vec F S1024x1024 .bf16) (xo4 xo5 : Vec F S512x1024 .f32) :
    out2_B_5 c i a3 h3 a4 h4 a5 h5 a6 h6 a7 h7 a8 h8 hc x0 x1 x2 x3 xo4 xo5 = addf (addf xo5 (mm x0 x3)) (mm x1 x2) := by
  unfold out2_B_5
  rw [View.read_writes_eq_canon _ _ _ (cover2_B_5 c i a3 h3 a4 h4 a5 h5 a6 h6 a7 h7 a8 h8 hc x0 x1 x2 x3 xo4 xo5)]
  unfold kernelRun2_B
  dsimp only
  sl_unfold_words
  rw [View.canon_cons_unit_zero (S := S512x1024) hz, View.readCov_unit_zero (S := S512x1024) _ hz]
  unfold k2_pay1 k2_pay10 k2_pay4 k2_pay5 k2_pay6 k2_pay7
  simp only [View.readAt_eq_ld, h3.read_unread, h4.read_unread, h5.read_unread, h6.read_unread, h8.read_unread,
    View.ld_unit_zero (S := S512x1024) hz, View.ld_unit_zero (S := S1024x1024) hz, shapeCast_self]

end Cert.KernelIdeal.MatmulBody

end
-- ==== Proof.MatmulValue.lean ====
/-
  The blocked matrix product, read as values: what the two result arrays hold after the third region.

  The grid is 16 row tiles × 4 column tiles × 4 feature blocks, walked with the feature block fastest: point
  `n = (16·?)…` has row tile `n / 16`, column tile `(n / 4) % 4` and feature block `n % 4`. A run of four consecutive
  points `4q … 4q + 3` keeps one output block (512 rows × 1024 columns) resident, clears it at the first point, adds two
  products at each point, and writes it back after the last. So the block written back at point `4q + 3` holds, at
  `(p, r)`,

      0 + ∑ s < 4, (∑ k < 1024, x (p, k of block s) * w (r, k of block s)  +  the same for the second pair),

  which is entry (512·(q / 4) + p, 1024·(q % 4) + r) of `x · wᵀ + x' · w'ᵀ` summed over all 4096 features
  (`Cert.BinaryLinear.pair_blocks`). The 64 written-back blocks tile the result array.
-/
import proofs.«178758_j70987219468443_2_alg».proof.Proof.Gen.KernelIdeal.Frame
import proofs.«178758_j70987219468443_2_alg».proof.Proof.Spec
import proofs.«178758_j70987219468443_2_alg».proof.Proof.MatmulBody
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.MatmulValue

open Cert.KernelIdeal Cert.KernelIdeal.Gen Cert.BinaryLinear Idealize.ShloMosaic.ValueIdx

/-! ## One product of the body, at an index -/

/-- The dimension numbers of the body's products: both operands contract their feature axis (axis 1). -/
abbrev DD : DotDims S512x1024 S1024x1024 S512x1024 := dot_S512x1024_S1024x1024_S512x1024_1_1_0_0_n_n

theorem lhs_row (j : S512x1024.Idx) (q : DD.contr.Idx) : (DD.lhsIdx j q 0).val = (j 0).val := by
  unfold DotDims.lhsIdx
  rw [dif_neg (show ¬(0 : Fin S512x1024.rank) ∈ DD.lhsBatch by decide), dif_pos (show (0 : Fin S512x1024.rank) ∈ DD.lhsNonContracting by decide)]
  rfl
theorem lhs_feat (j : S512x1024.Idx) (q : DD.contr.Idx) : (DD.lhsIdx j q 1).val = (q ⟨0, by decide⟩).val :=
  DD.lhsIdx_val_of_single rfl j q
theorem rhs_row (j : S512x1024.Idx) (q : DD.contr.Idx) : (DD.rhsIdx j q 0).val = (j 1).val := by
  unfold DotDims.rhsIdx
  rw [dif_neg (show ¬(0 : Fin S1024x1024.rank) ∈ DD.rhsBatch by decide), dif_pos (show (0 : Fin S1024x1024.rank) ∈ DD.rhsNonContracting by decide)]
  rfl
theorem rhs_feat (j : S512x1024.Idx) (q : DD.contr.Idx) : (DD.rhsIdx j q 1).val = (q ⟨0, by decide⟩).val :=
  DD.rhsIdx_val_of_single rfl j q

/-- Entry `(p, r)` of an input block times a weight block transposed: the sum over the block's 1024 features. -/
theorem mm_apply (x : FVec Ideal S512x1024 .bf16) (w : FVec Ideal S1024x1024 .bf16) (p : Fin 512) (r : Fin 1024) :
    MatmulBody.mm (F := Ideal) x w (ix2 p r) = ∑ k : Fin 1024, x (ix2 p k) * w (ix2 r k) := by
  show matmul DD none x w (constant S512x1024 .f32 0x00000000#32) (ix2 p r) = _
  simp only [matmul]
  rw [Ideal.matmul_constant_zero_apply, ← Equiv.sum_comp (ValueIdx.contrEquiv1 DD 1024 rfl rfl).symm]
  refine Finset.sum_congr rfl fun k _ => ?_
  have hk := ValueIdx.contrEquiv1_symm_val DD 1024 rfl rfl k
  have el : DD.lhsIdx (ix2 p r) ((ValueIdx.contrEquiv1 DD 1024 rfl rfl).symm k) = ix2 p k := funext fun a => Fin.ext (by
    match a with
    | ⟨0, _⟩ => exact lhs_row _ _
    | ⟨1, _⟩ => exact (lhs_feat _ _).trans hk)
  have er : DD.rhsIdx (ix2 p r) ((ValueIdx.contrEquiv1 DD 1024 rfl rfl).symm k) = ix2 r k := funext fun a => Fin.ext (by
    match a with
    | ⟨0, _⟩ => exact rhs_row _ _
    | ⟨1, _⟩ => exact (rhs_feat _ _).trans hk)
  rw [el, er]

/-- The cleared block is zero. -/
theorem zero_apply (y : S512x1024.Idx) : MatmulBody.zeroBlk (F := Ideal) y = 0 := Ideal.ofBits_zero_f32

/-! ## The windows' index maps over the grid -/

theorem hN : cfg2.N = 256 := N_2

/-- The block each window fetches or writes at point `t`: input blocks by (row tile, feature block), weight blocks by
    (column tile, feature block), output blocks by (row tile, column tile). -/
theorem index_maps : ∀ t : Fin cfg2.N,
    win2_0.index t (0 : Fin 2) = t.val / 16 ∧ win2_0.index t (1 : Fin 2) = t.val % 4
    ∧ win2_1.index t (0 : Fin 2) = t.val / 16 ∧ win2_1.index t (1 : Fin 2) = t.val % 4
    ∧ win2_2.index t (0 : Fin 2) = t.val / 4 % 4 ∧ win2_2.index t (1 : Fin 2) = t.val % 4
    ∧ win2_3.index t (0 : Fin 2) = t.val / 4 % 4 ∧ win2_3.index t (1 : Fin 2) = t.val % 4
    ∧ win2_4.index t (0 : Fin 2) = t.val / 16 ∧ win2_4.index t (1 : Fin 2) = t.val / 4 % 4
    ∧ win2_5.index t (0 : Fin 2) = t.val / 16 ∧ win2_5.index t (1 : Fin 2) = t.val / 4 % 4 :=
  (by decide +kernel : ∀ t : Fin grid2.N, _)

variable (V : (c : Dev nD) → (b : Ref sig .tc) → Buf (Elt Ideal) ((c : Thread nD τ).loc b))

/-! ## The input blocks, read through their windows -/

/-- Entry `(p, k)` of the first input's block at point `t` is entry (512·(t / 16) + p, 1024·(t % 4) + k) of the array. -/
theorem blk_x0 (c : Dev nD) (t : Fin cfg2.N) (p : Fin 512) (k : Fin 1024) (I : Fin 8192) (K : Fin 4096)
    (hI : I.val = 512 * (t.val / 16) + p.val) (hK : K.val = 1024 * (t.val % 4) + k.val) :
    (iblk2 V c 0 t : Vec Ideal S512x1024 .bf16) (ix2 p k) = V c main_v1_0 (ix2 I K) := by
  obtain ⟨e0, e1, -⟩ := index_maps t
  unfold iblk2
  rw [View.read_apply]
  show V c main_v1_0 _ = V c main_v1_0 _
  refine congrArg (V c main_v1_0) ?_
  funext a
  apply Fin.ext
  match a with
  | ⟨0, _⟩ => show win2_0.index t (0 : Fin 2) * 512 + 1 * p.val = I.val; rw [e0, hI]; omega
  | ⟨1, _⟩ => show win2_0.index t (1 : Fin 2) * 1024 + 1 * k.val = K.val; rw [e1, hK]; omega

theorem blk_x1 (c : Dev nD) (t : Fin cfg2.N) (p : Fin 512) (k : Fin 1024) (I : Fin 8192) (K : Fin 4096)
    (hI : I.val = 512 * (t.val / 16) + p.val) (hK : K.val = 1024 * (t.val % 4) + k.val) :
    (iblk2 V c 1 t : Vec Ideal S512x1024 .bf16) (ix2 p k) = V c main_v1_1 (ix2 I K) := by
  obtain ⟨-, -, e0, e1, -⟩ := index_maps t
  unfold iblk2
  rw [View.read_apply]
  show V c main_v1_1 _ = V c main_v1_1 _
  refine congrArg (V c main_v1_1) ?_
  funext a
  apply Fin.ext
  match a with
  | ⟨0, _⟩ => show win2_1.index t (0 : Fin 2) * 512 + 1 * p.val = I.val; rw [e0, hI]; omega
  | ⟨1, _⟩ => show win2_1.index t (1 : Fin 2) * 1024 + 1 * k.val = K.val; rw [e1, hK]; omega

/-- Entry `(r, k)` of the first weight's block at point `t` is entry (1024·((t / 4) % 4) + r, 1024·(t % 4) + k). -/
theorem blk_w0 (c : Dev nD) (t : Fin cfg2.N) (r : Fin 1024) (k : Fin 1024) (J : Fin 4096) (K : Fin 4096)
    (hJ : J.val = 1024 * (t.val / 4 % 4) + r.val) (hK : K.val = 1024 * (t.val % 4) + k.val) :
    (iblk2 V c 2 t : Vec Ideal S1024x1024 .bf16) (ix2 r k) = V c main_v0_0 (ix2 J K) := by
  obtain ⟨-, -, -, -, e0, e1, -⟩ := index_maps t
  unfold iblk2
  rw [View.read_apply]
  show V c main_v0_0 _ = V c main_v0_0 _
  refine congrArg (V c main_v0_0) ?_
  funext a
  apply Fin.ext
  match a with
  | ⟨0, _⟩ => show win2_2.index t (0 : Fin 2) * 1024 + 1 * r.val = J.val; rw [e0, hJ]; omega
  | ⟨1, _⟩ => show win2_2.index t (1 : Fin 2) * 1024 + 1 * k.val = K.val; rw [e1, hK]; omega

theorem blk_w1 (c : Dev nD) (t : Fin cfg2.N) (r : Fin 1024) (k : Fin 1024) (J : Fin 4096) (K : Fin 4096)
    (hJ : J.val = 1024 * (t.val / 4 % 4) + r.val) (hK : K.val = 1024 * (t.val % 4) + k.val) :
    (iblk2 V c 3 t : Vec Ideal S1024x1024 .bf16) (ix2 r k) = V c main_v0_1 (ix2 J K) := by
  obtain ⟨-, -, -, -, -, -, e0, e1, -⟩ := index_maps t
  unfold iblk2
  rw [View.read_apply]
  show V c main_v0_1 _ = V c main_v0_1 _
  refine congrArg (V c main_v0_1) ?_
  funext a
  apply Fin.ext
  match a with
  | ⟨0, _⟩ => show win2_3.index t (0 : Fin 2) * 1024 + 1 * r.val = J.val; rw [e0, hJ]; omega
  | ⟨1, _⟩ => show win2_3.index t (1 : Fin 2) * 1024 + 1 * k.val = K.val; rw [e1, hK]; omega

/-! ## What a point adds, and the running sum over a run of four points -/

/-- The sum of the products of two blocks' rows `p` and `r` over the block's 1024 features. -/
def dotBlk (x : Vec Ideal S512x1024 .bf16) (w : Vec Ideal S1024x1024 .bf16) (p : Fin 512) (r : Fin 1024) : EReal :=
  ∑ k : Fin 1024, x (ix2 p k) * w (ix2 r k)

/-- What point `n` adds to entry `(p, r)` of the real block (nothing past the grid, which no sum reaches). -/
def addReal (c : Dev nD) (n : Nat) (p : Fin 512) (r : Fin 1024) : EReal :=
  if h : n < cfg2.N then
    dotBlk (iblk2 V c 0 ⟨n, h⟩) (iblk2 V c 2 ⟨n, h⟩) p r + dotBlk (iblk2 V c 1 ⟨n, h⟩) (iblk2 V c 3 ⟨n, h⟩) p r
  else 0

/-- What point `n` adds to entry `(p, r)` of the imaginary block. -/
def addImag (c : Dev nD) (n : Nat) (p : Fin 512) (r : Fin 1024) : EReal :=
  if h : n < cfg2.N then
    dotBlk (iblk2 V c 0 ⟨n, h⟩) (iblk2 V c 3 ⟨n, h⟩) p r + dotBlk (iblk2 V c 1 ⟨n, h⟩) (iblk2 V c 2 ⟨n, h⟩) p r
  else 0

/-- Two products added to a block, at an index. -/
theorem step_apply (acc : Vec Ideal S512x1024 .f32) (x x' : Vec Ideal S512x1024 .bf16) (w w' : Vec Ideal S1024x1024 .bf16)
    (p : Fin 512) (r : Fin 1024) :
    addf (addf acc (MatmulBody.mm (F := Ideal) x w)) (MatmulBody.mm (F := Ideal) x' w') (ix2 p r)
      = acc (ix2 p r) + (dotBlk x w p r + dotBlk x' w' p r) := by
  rw [addf_apply, addf_apply, mm_apply, mm_apply, add_assoc]
  rfl

/-- After the point at position `j` of the run starting at `4q`, both blocks hold the sums of what the run's points
    added so far: by induction on the position in the run. -/
theorem running (c : Dev nD) (q : Nat) : ∀ (j : Nat) (hj : j < 4) (h : 4 * q + j < cfg2.N) (p : Fin 512) (r : Fin 1024),
    (outsAt2 V c (4 * q + j) h).1 (ix2 p r) = 0 + ∑ s ∈ Finset.range (j + 1), addReal V c (4 * q + s) p r
    ∧ (outsAt2 V c (4 * q + j) h).2 (ix2 p r) = 0 + ∑ s ∈ Finset.range (j + 1), addImag V c (4 * q + s) p r
  | 0, _, h, p, r => by
    have h0 : (⟨4 * q + 0, h⟩ : Fin cfg2.N).val % 4 = 0 := by show (4 * q + 0) % 4 = 0; omega
    have e := outsAt2_A V c ⟨4 * q + 0, h⟩ h0
    have e' : outsAt2 V c (4 * q + 0) h = _ := e
    rw [e', Finset.sum_range_one, Finset.sum_range_one]
    dsimp only
    rw [MatmulBody.first_real, MatmulBody.first_imag, step_apply, step_apply, zero_apply]
    unfold addReal addImag
    rw [dif_pos h, dif_pos h]
    exact ⟨rfl, rfl⟩
  | j + 1, hj, h, p, r => by
    have hB : ¬(⟨4 * q + (j + 1), h⟩ : Fin cfg2.N).val % 4 = 0 := by show ¬(4 * q + (j + 1)) % 4 = 0; omega
    have e := outsAt2_B V c ⟨4 * q + (j + 1), h⟩ hB
    have e' : outsAt2 V c (4 * q + (j + 1)) h = _ := e
    obtain ⟨ih1, ih2⟩ := running c q j (Nat.lt_of_succ_lt hj) (Nat.lt_of_succ_lt h) p r
    rw [e', Finset.sum_range_succ _ (j + 1), Finset.sum_range_succ _ (j + 1)]
    dsimp only
    rw [MatmulBody.next_real, MatmulBody.next_imag, step_apply, step_apply]
    have k1 : (outsAt2 V c ((⟨4 * q + (j + 1), h⟩ : Fin cfg2.N).val - 1) (Nat.lt_of_le_of_lt (Nat.sub_le _ _) (⟨4 * q + (j + 1), h⟩ : Fin cfg2.N).isLt)).1 (ix2 p r)
        = 0 + ∑ s ∈ Finset.range (j + 1), addReal V c (4 * q + s) p r := ih1
    have k2 : (outsAt2 V c ((⟨4 * q + (j + 1), h⟩ : Fin cfg2.N).val - 1) (Nat.lt_of_le_of_lt (Nat.sub_le _ _) (⟨4 * q + (j + 1), h⟩ : Fin cfg2.N).isLt)).2 (ix2 p r)
        = 0 + ∑ s ∈ Finset.range (j + 1), addImag V c (4 * q + s) p r := ih2
    rw [k1, k2]
    unfold addReal addImag
    rw [dif_pos h, dif_pos h, add_assoc, add_assoc]
    exact ⟨rfl, rfl⟩

/-! ## What a point adds, in terms of the arrays -/

/-- The point at position `s` of the run `4q …` adds, to entry `(p, r)` of the real block, feature block `s` of the two
    contractions at row 512·(q / 4) + p and column 1024·(q % 4) + r. -/
theorem addReal_eq (c : Dev nD) (q s : Nat) (hq : q < 64) (hs : s < 4) (p : Fin 512) (r : Fin 1024) (I : Fin 8192) (J : Fin 4096)
    (hI : I.val = 512 * (q / 4) + p.val) (hJ : J.val = 1024 * (q % 4) + r.val) :
    addReal V c (4 * q + s) p r
      = (∑ k : Fin 1024, term (V c main_v1_0) (V c main_v0_0) I J (1024 * s + k.val))
        + ∑ k : Fin 1024, term (V c main_v1_1) (V c main_v0_1) I J (1024 * s + k.val) := by
  have hn : 4 * q + s < cfg2.N := by rw [hN]; omega
  unfold addReal
  rw [dif_pos hn]
  unfold dotBlk
  refine congrArg₂ (· + ·) (Finset.sum_congr rfl fun k _ => ?_) (Finset.sum_congr rfl fun k _ => ?_)
  · have hk1 : k.val < 1024 := k.isLt
    have hk : 1024 * s + k.val < 4096 := by omega
    unfold term
    rw [dif_pos hk,
      blk_x0 V c ⟨4 * q + s, hn⟩ p k I ⟨1024 * s + k.val, hk⟩
        (by show I.val = 512 * ((4 * q + s) / 16) + p.val; rw [hI]; omega)
        (by show 1024 * s + k.val = 1024 * ((4 * q + s) % 4) + k.val; omega),
      blk_w0 V c ⟨4 * q + s, hn⟩ r k J ⟨1024 * s + k.val, hk⟩
        (by show J.val = 1024 * ((4 * q + s) / 4 % 4) + r.val; rw [hJ]; omega)
        (by show 1024 * s + k.val = 1024 * ((4 * q + s) % 4) + k.val; omega)]
  · have hk1 : k.val < 1024 := k.isLt
    have hk : 1024 * s + k.val < 4096 := by omega
    unfold term
    rw [dif_pos hk,
      blk_x1 V c ⟨4 * q + s, hn⟩ p k I ⟨1024 * s + k.val, hk⟩
        (by show I.val = 512 * ((4 * q + s) / 16) + p.val; rw [hI]; omega)
        (by show 1024 * s + k.val = 1024 * ((4 * q + s) % 4) + k.val; omega),
      blk_w1 V c ⟨4 * q + s, hn⟩ r k J ⟨1024 * s + k.val, hk⟩
        (by show J.val = 1024 * ((4 * q + s) / 4 % 4) + r.val; rw [hJ]; omega)
        (by show 1024 * s + k.val = 1024 * ((4 * q + s) % 4) + k.val; omega)]

/-- The same for the imaginary block: the weights exchanged. -/
theorem addImag_eq (c : Dev nD) (q s : Nat) (hq : q < 64) (hs : s < 4) (p : Fin 512) (r : Fin 1024) (I : Fin 8192) (J : Fin 4096)
    (hI : I.val = 512 * (q / 4) + p.val) (hJ : J.val = 1024 * (q % 4) + r.val) :
    addImag V c (4 * q + s) p r
      = (∑ k : Fin 1024, term (V c main_v1_0) (V c main_v0_1) I J (1024 * s + k.val))
        + ∑ k : Fin 1024, term (V c main_v1_1) (V c main_v0_0) I J (1024 * s + k.val) := by
  have hn : 4 * q + s < cfg2.N := by rw [hN]; omega
  unfold addImag
  rw [dif_pos hn]
  unfold dotBlk
  refine congrArg₂ (· + ·) (Finset.sum_congr rfl fun k _ => ?_) (Finset.sum_congr rfl fun k _ => ?_)
  · have hk1 : k.val < 1024 := k.isLt
    have hk : 1024 * s + k.val < 4096 := by omega
    unfold term
    rw [dif_pos hk,
      blk_x0 V c ⟨4 * q + s, hn⟩ p k I ⟨1024 * s + k.val, hk⟩
        (by show I.val = 512 * ((4 * q + s) / 16) + p.val; rw [hI]; omega)
        (by show 1024 * s + k.val = 1024 * ((4 * q + s) % 4) + k.val; omega),
      blk_w1 V c ⟨4 * q + s, hn⟩ r k J ⟨1024 * s + k.val, hk⟩
        (by show J.val = 1024 * ((4 * q + s) / 4 % 4) + r.val; rw [hJ]; omega)
        (by show 1024 * s + k.val = 1024 * ((4 * q + s) % 4) + k.val; omega)]
  · have hk1 : k.val < 1024 := k.isLt
    have hk : 1024 * s + k.val < 4096 := by omega
    unfold term
    rw [dif_pos hk,
      blk_x1 V c ⟨4 * q + s, hn⟩ p k I ⟨1024 * s + k.val, hk⟩
        (by show I.val = 512 * ((4 * q + s) / 16) + p.val; rw [hI]; omega)
        (by show 1024 * s + k.val = 1024 * ((4 * q + s) % 4) + k.val; omega),
      blk_w0 V c ⟨4 * q + s, hn⟩ r k J ⟨1024 * s + k.val, hk⟩
        (by show J.val = 1024 * ((4 * q + s) / 4 % 4) + r.val; rw [hJ]; omega)
        (by show 1024 * s + k.val = 1024 * ((4 * q + s) % 4) + k.val; omega)]

/-! ## The two result arrays -/

/-- The real result as one function of the arrays the region finds: `x · wrᵀ + x' · wcᵀ`. -/
abbrev GReal (c : Dev nD) : Mat 8192 4096 :=
  yReal (fun i => V c main_v1_0 i) (fun i => V c main_v1_1 i) (fun i => V c main_v0_0 i) (fun i => V c main_v0_1 i)

/-- The imaginary result: `x · wcᵀ + x' · wrᵀ`. -/
abbrev GImag (c : Dev nD) : Mat 8192 4096 :=
  yCplx (fun i => V c main_v1_0 i) (fun i => V c main_v1_1 i) (fun i => V c main_v0_0 i) (fun i => V c main_v0_1 i)

/-- The same staging contents named at two equal point numbers. -/
theorem outs_congr (c : Dev nD) (n n' : Nat) (h : n < cfg2.N) (h' : n' < cfg2.N) (e : n = n') :
    outsAt2 V c n h = outsAt2 V c n' h' := by subst e; rfl

/-- At the last point `t` of a run, entry `(p, r)` of the real block is entry (512·(t / 16) + p, 1024·((t / 4) % 4) + r)
    of the real result. -/
theorem last_real (c : Dev nD) (t : Fin cfg2.N) (h3 : t.val % 4 = 3) (p : Fin 512) (r : Fin 1024) (I : Fin 8192) (J : Fin 4096)
    (hI : I.val = 512 * (t.val / 16) + p.val) (hJ : J.val = 1024 * (t.val / 4 % 4) + r.val) :
    (outsAt2 V c t.val t.isLt).1 (ix2 p r) = GReal V c (ix2 I J) := by
  have hlt : t.val < 256 := lt_of_lt_of_eq t.isLt hN
  have hq : t.val / 4 < 64 := by omega
  have ht : t.val = 4 * (t.val / 4) + 3 := by omega
  have hn : 4 * (t.val / 4) + 3 < cfg2.N := lt_of_lt_of_eq (by omega : 4 * (t.val / 4) + 3 < 256) hN.symm
  rw [outs_congr V c t.val (4 * (t.val / 4) + 3) t.isLt hn ht, (running V c (t.val / 4) 3 (by omega) hn p r).1]
  show _ = rowdot _ _ I J + rowdot _ _ I J
  rw [pair_blocks]
  refine congrArg (0 + ·) (Finset.sum_congr rfl fun s hs => ?_)
  exact addReal_eq V c (t.val / 4) s hq (Finset.mem_range.mp hs) p r I J (by rw [hI]; omega) hJ

theorem last_imag (c : Dev nD) (t : Fin cfg2.N) (h3 : t.val % 4 = 3) (p : Fin 512) (r : Fin 1024) (I : Fin 8192) (J : Fin 4096)
    (hI : I.val = 512 * (t.val / 16) + p.val) (hJ : J.val = 1024 * (t.val / 4 % 4) + r.val) :
    (outsAt2 V c t.val t.isLt).2 (ix2 p r) = GImag V c (ix2 I J) := by
  have hlt : t.val < 256 := lt_of_lt_of_eq t.isLt hN
  have hq : t.val / 4 < 64 := by omega
  have ht : t.val = 4 * (t.val / 4) + 3 := by omega
  have hn : 4 * (t.val / 4) + 3 < cfg2.N := lt_of_lt_of_eq (by omega : 4 * (t.val / 4) + 3 < 256) hN.symm
  rw [outs_congr V c t.val (4 * (t.val / 4) + 3) t.isLt hn ht, (running V c (t.val / 4) 3 (by omega) hn p r).2]
  show _ = rowdot _ _ I J + rowdot _ _ I J
  rw [pair_blocks]
  refine congrArg (0 + ·) (Finset.sum_congr rfl fun s hs => ?_)
  exact addImag_eq V c (t.val / 4) s hq (Finset.mem_range.mp hs) p r I J (by rw [hI]; omega) hJ

/-- What a write-back point writes to the real array is its block of the real result. -/
theorem flushed_real (c : Dev nD) (t : Fin cfg2.N) (hf : (cfg2.win 4).flush t = true) :
    (dat2 (F := Ideal) V c).flushed 4 t = ((cfg2.win 4).blk t).view.read (Elt Ideal) (GReal V c) := by
  have h3 : t.val % 4 = 3 := (flush2_4 t).mp hf
  have hlt : t.val < 256 := lt_of_lt_of_eq t.isLt hN
  obtain ⟨-, -, -, -, -, -, -, -, e0, e1, -⟩ := index_maps t
  show (cfg2.win 4).cut (grid2.coords t) ((dat2 V c).after 4 t) = _
  rw [after2_4]
  funext y
  have hy0 : (y 0).val < 512 := (y 0).isLt
  have hy1 : (y 1).val < 1024 := (y 1).isLt
  have hy : y = ix2 (⟨(y 0).val, hy0⟩ : Fin 512) (⟨(y 1).val, hy1⟩ : Fin 1024) :=
    funext fun a => by match a with | ⟨0, _⟩ => rfl | ⟨1, _⟩ => rfl
  have hemb : ((cfg2.win 4).blk t).view.emb y
      = ix2 (⟨512 * (t.val / 16) + (y 0).val, by omega⟩ : Fin 8192) (⟨1024 * (t.val / 4 % 4) + (y 1).val, by omega⟩ : Fin 4096) := by
    funext a; apply Fin.ext
    match a with
    | ⟨0, _⟩ => show win2_4.index t (0 : Fin 2) * 512 + 1 * (y 0).val = 512 * (t.val / 16) + (y 0).val; rw [e0]; omega
    | ⟨1, _⟩ => show win2_4.index t (1 : Fin 2) * 1024 + 1 * (y 1).val = 1024 * (t.val / 4 % 4) + (y 1).val; rw [e1]; omega
  show (outsAt2 V c t.val t.isLt).1 y = GReal V c (((cfg2.win 4).blk t).view.emb y)
  rw [hemb]
  refine (congrArg (outsAt2 V c t.val t.isLt).1 hy).trans ?_
  exact last_real V c t h3 _ _ _ _ rfl rfl

theorem flushed_imag (c : Dev nD) (t : Fin cfg2.N) (hf : (cfg2.win 5).flush t = true) :
    (dat2 (F := Ideal) V c).flushed 5 t = ((cfg2.win 5).blk t).view.read (Elt Ideal) (GImag V c) := by
  have h3 : t.val % 4 = 3 := (flush2_5 t).mp hf
  have hlt : t.val < 256 := lt_of_lt_of_eq t.isLt hN
  obtain ⟨-, -, -, -, -, -, -, -, -, -, e0, e1⟩ := index_maps t
  show (cfg2.win 5).cut (grid2.coords t) ((dat2 V c).after 5 t) = _
  rw [after2_5]
  funext y
  have hy0 : (y 0).val < 512 := (y 0).isLt
  have hy1 : (y 1).val < 1024 := (y 1).isLt
  have hy : y = ix2 (⟨(y 0).val, hy0⟩ : Fin 512) (⟨(y 1).val, hy1⟩ : Fin 1024) :=
    funext fun a => by match a with | ⟨0, _⟩ => rfl | ⟨1, _⟩ => rfl
  have hemb : ((cfg2.win 5).blk t).view.emb y
      = ix2 (⟨512 * (t.val / 16) + (y 0).val, by omega⟩ : Fin 8192) (⟨1024 * (t.val / 4 % 4) + (y 1).val, by omega⟩ : Fin 4096) := by
    funext a; apply Fin.ext
    match a with
    | ⟨0, _⟩ => show win2_5.index t (0 : Fin 2) * 512 + 1 * (y 0).val = 512 * (t.val / 16) + (y 0).val; rw [e0]; omega
    | ⟨1, _⟩ => show win2_5.index t (1 : Fin 2) * 1024 + 1 * (y 1).val = 1024 * (t.val / 4 % 4) + (y 1).val; rw [e1]; omega
  show (outsAt2 V c t.val t.isLt).2 y = GImag V c (((cfg2.win 5).blk t).view.emb y)
  rw [hemb]
  refine (congrArg (outsAt2 V c t.val t.isLt).2 hy).trans ?_
  exact last_imag V c t h3 _ _ _ _ rfl rfl

/-- Every entry of the real array lies in the block some write-back point writes: entry `(a, b)` in the block of the
    last point of the run with row tile `a / 512` and column tile `b / 1024`. -/
theorem covered_real (i : S8192x4096.Idx) :
    ∃ t : Fin cfg2.N, (cfg2.win 4).flush t = true ∧ i ∈ ((cfg2.win 4).blk t).view.set := by
  have h0 : (i 0).val < 8192 := (i 0).isLt
  have h1 : (i 1).val < 4096 := (i 1).isLt
  obtain ⟨n, hnd⟩ : ∃ n, n = 16 * ((i 0).val / 512) + 4 * ((i 1).val / 1024) + 3 := ⟨_, rfl⟩
  have hn : n < cfg2.N := by rw [hN]; omega
  obtain ⟨-, -, -, -, -, -, -, -, e0, e1, -⟩ := index_maps ⟨n, hn⟩
  have e0' : win2_4.index ⟨n, hn⟩ (0 : Fin 2) = n / 16 := e0
  have e1' : win2_4.index ⟨n, hn⟩ (1 : Fin 2) = n / 4 % 4 := e1
  refine ⟨⟨n, hn⟩, (flush2_4 _).mpr (by show n % 4 = 3; omega), ?_⟩
  show i ∈ ((View.whole main_v2_0).slice (win2_4.rect ⟨n, hn⟩)).set
  rw [View.set_slice_whole, Rect.mem_set_unit]
  intro a
  match a with
  | ⟨0, _⟩ => show win2_4.index ⟨n, hn⟩ (0 : Fin 2) * 512 ≤ (i 0).val ∧ (i 0).val < win2_4.index ⟨n, hn⟩ (0 : Fin 2) * 512 + 512; rw [e0']; omega
  | ⟨1, _⟩ => show win2_4.index ⟨n, hn⟩ (1 : Fin 2) * 1024 ≤ (i 1).val ∧ (i 1).val < win2_4.index ⟨n, hn⟩ (1 : Fin 2) * 1024 + 1024; rw [e1']; omega

theorem covered_imag (i : S8192x4096.Idx) :
    ∃ t : Fin cfg2.N, (cfg2.win 5).flush t = true ∧ i ∈ ((cfg2.win 5).blk t).view.set := by
  have h0 : (i 0).val < 8192 := (i 0).isLt
  have h1 : (i 1).val < 4096 := (i 1).isLt
  obtain ⟨n, hnd⟩ : ∃ n, n = 16 * ((i 0).val / 512) + 4 * ((i 1).val / 1024) + 3 := ⟨_, rfl⟩
  have hn : n < cfg2.N := by rw [hN]; omega
  obtain ⟨-, -, -, -, -, -, -, -, -, -, e0, e1⟩ := index_maps ⟨n, hn⟩
  have e0' : win2_5.index ⟨n, hn⟩ (0 : Fin 2) = n / 16 := e0
  have e1' : win2_5.index ⟨n, hn⟩ (1 : Fin 2) = n / 4 % 4 := e1
  refine ⟨⟨n, hn⟩, (flush2_5 _).mpr (by show n % 4 = 3; omega), ?_⟩
  show i ∈ ((View.whole main_v2_1).slice (win2_5.rect ⟨n, hn⟩)).set
  rw [View.set_slice_whole, Rect.mem_set_unit]
  intro a
  match a with
  | ⟨0, _⟩ => show win2_5.index ⟨n, hn⟩ (0 : Fin 2) * 512 ≤ (i 0).val ∧ (i 0).val < win2_5.index ⟨n, hn⟩ (0 : Fin 2) * 512 + 512; rw [e0']; omega
  | ⟨1, _⟩ => show win2_5.index ⟨n, hn⟩ (1 : Fin 2) * 1024 ≤ (i 1).val ∧ (i 1).val < win2_5.index ⟨n, hn⟩ (1 : Fin 2) * 1024 + 1024; rw [e1']; omega

/-- After the region the real result array holds `x · wrᵀ + x' · wcᵀ` of the arrays the region found. -/
theorem result_real (c : Dev nD) : (dat2 (F := Ideal) V c).arrAt 4 cfg2.N = GReal V c :=
  (dat2 (F := Ideal) V c).arrAt_eq_of_cover 4 (GReal V c) (fun t hf => flushed_real V c t hf) (fun i => covered_real i)

/-- After the region the imaginary result array holds `x · wcᵀ + x' · wrᵀ`. -/
theorem result_imag (c : Dev nD) : (dat2 (F := Ideal) V c).arrAt 5 cfg2.N = GImag V c :=
  (dat2 (F := Ideal) V c).arrAt_eq_of_cover 5 (GImag V c) (fun t hf => flushed_imag V c t hf) (fun i => covered_imag i)

end Cert.KernelIdeal.MatmulValue

end
-- ==== Proof.KernelRun.lean ====
/-
  The kernel program's run with its two result arrays named.

  The program is three regions in a row. Its run ends with every unscoped buffer at the contents the last region
  leaves (`Gen.W3`); this module reads that final state at the two result arrays as well as at the six arguments.
-/
import proofs.«178758_j70987219468443_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result arrays end at what the
    third region leaves in them, and the arguments end as launched. -/
theorem run_named : θ_run defs (onTc (τ := τ) (main (F := F))) ⟨m, fun _ => 0, ρ⟩ (fun r => ∀ c : Dev nD,
      r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2_0 (by decide)),
       h c _ (mem_uc main_v2_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.KernelRun

end
-- ==== Proof.KernelValue.lean ====
/-
  The kernel program's two results as functions of its six arguments.

  The first region writes the binarized weights `wr = sgnw wrp wrn` and `wc = sgnw wcp wcn`, the second copies the two
  inputs (a change of float format, the identity on extended reals), and the third multiplies: its result arrays hold
  `x · wrᵀ + x' · wcᵀ` and `x · wcᵀ + x' · wrᵀ` of the arrays it finds, which are the first two regions' outputs. No
  region writes an argument, so each stage reads the launch contents.
-/
import proofs.«178758_j70987219468443_2_alg».proof.Proof.Gen.KernelIdeal.Frame
import proofs.«178758_j70987219468443_2_alg».proof.Proof.Spec
import proofs.«178758_j70987219468443_2_alg».proof.Proof.Binarize
import proofs.«178758_j70987219468443_2_alg».proof.Proof.CastInputs
import proofs.«178758_j70987219468443_2_alg».proof.Proof.MatmulValue
import proofs.«178758_j70987219468443_2_alg».proof.Proof.KernelRun

noncomputable section

open Idealize.ShloMosaic Idealize.ShloMosaic.TcCoe Idealize.SL.Sem

namespace Cert.KernelIdeal.KernelValue

open Cert.KernelIdeal Cert.KernelIdeal.Gen Cert.BinaryLinear

variable (m : (ℓ : Loc nD τ sig) → Buf (Elt Ideal) ℓ) (ρ : Dev nD → PrngReg)

/-- The real part of the layer's output, of the launch contents of the six arguments. -/
abbrev outReal (c : Dev nD) : Mat 8192 4096 :=
  yReal (fun i => m ((c : Thread nD τ).loc main_arg0) i) (fun i => m ((c : Thread nD τ).loc main_arg1) i)
    (fun i => sgnw (m ((c : Thread nD τ).loc main_arg2) i) (m ((c : Thread nD τ).loc main_arg3) i))
    (fun i => sgnw (m ((c : Thread nD τ).loc main_arg4) i) (m ((c : Thread nD τ).loc main_arg5) i))

/-- The imaginary part of the layer's output. -/
abbrev outImag (c : Dev nD) : Mat 8192 4096 :=
  yCplx (fun i => m ((c : Thread nD τ).loc main_arg0) i) (fun i => m ((c : Thread nD τ).loc main_arg1) i)
    (fun i => sgnw (m ((c : Thread nD τ).loc main_arg2) i) (m ((c : Thread nD τ).loc main_arg3) i))
    (fun i => sgnw (m ((c : Thread nD τ).loc main_arg4) i) (m ((c : Thread nD τ).loc main_arg5) i))

/-! ## What the third region finds in its four operand arrays -/

/-- The first input as the third region finds it: the second region's copy of the argument. -/
theorem found_x (c : Dev nD) : V2 m ρ c main_v1_0 = fun i => m ((c : Thread nD τ).loc main_arg0) i :=
  calc V2 m ρ c main_v1_0
    _ = (dat1 (V1 m ρ) c).arrAt 2 cfg1.N := W2_arr m ρ c 2
    _ = fun i => V1 m ρ c main_arg0 i := CastInputs.inputs_real (V1 m ρ) c
    _ = fun i => m ((c : Thread nD τ).loc main_arg0) i := by
        have e : V1 m ρ c main_arg0 = m ((c : Thread nD τ).loc main_arg0) := (W1_of_ne m ρ c main_arg0 (by decide)).trans rfl
        rw [e]

theorem found_x' (c : Dev nD) : V2 m ρ c main_v1_1 = fun i => m ((c : Thread nD τ).loc main_arg1) i :=
  calc V2 m ρ c main_v1_1
    _ = (dat1 (V1 m ρ) c).arrAt 3 cfg1.N := W2_arr m ρ c 3
    _ = fun i => V1 m ρ c main_arg1 i := CastInputs.inputs_cplx (V1 m ρ) c
    _ = fun i => m ((c : Thread nD τ).loc main_arg1) i := by
        have e : V1 m ρ c main_arg1 = m ((c : Thread nD τ).loc main_arg1) := (W1_of_ne m ρ c main_arg1 (by decide)).trans rfl
        rw [e]

/-- The real weight as the third region finds it: the first region's binarized difference, untouched by the second. -/
theorem found_wr (c : Dev nD) : V2 m ρ c main_v0_0 = fun i => sgnw (m ((c : Thread nD τ).loc main_arg2) i) (m ((c : Thread nD τ).loc main_arg3) i) :=
  calc V2 m ρ c main_v0_0
    _ = W1 m ρ c (Proc.devRef .tc main_v0_0) := W2_of_ne m ρ c main_v0_0 (by decide)
    _ = (dat0 (V0 m ρ) c).arrAt 4 cfg0.N := W1_arr m ρ c 4
    _ = fun i => sgnw (V0 m ρ c main_arg2 i) (V0 m ρ c main_arg3 i) := Binarize.weights_real (V0 m ρ) c
    _ = fun i => sgnw (m ((c : Thread nD τ).loc main_arg2) i) (m ((c : Thread nD τ).loc main_arg3) i) := rfl

theorem found_wc (c : Dev nD) : V2 m ρ c main_v0_1 = fun i => sgnw (m ((c : Thread nD τ).loc main_arg4) i) (m ((c : Thread nD τ).loc main_arg5) i) :=
  calc V2 m ρ c main_v0_1
    _ = W1 m ρ c (Proc.devRef .tc main_v0_1) := W2_of_ne m ρ c main_v0_1 (by decide)
    _ = (dat0 (V0 m ρ) c).arrAt 5 cfg0.N := W1_arr m ρ c 5
    _ = fun i => sgnw (V0 m ρ c main_arg4 i) (V0 m ρ c main_arg5 i) := Binarize.weights_cplx (V0 m ρ) c
    _ = fun i => sgnw (m ((c : Thread nD τ).loc main_arg4) i) (m ((c : Thread nD τ).loc main_arg5) i) := rfl

/-! ## The two result arrays after the run -/

theorem final_real (c : Dev nD) : W3 m ρ c (Proc.devRef .tc main_v2_0) = outReal m c :=
  calc W3 m ρ c (Proc.devRef .tc main_v2_0)
    _ = (dat2 (V2 m ρ) c).arrAt 4 cfg2.N := W3_arr m ρ c 4
    _ = MatmulValue.GReal (V2 m ρ) c := MatmulValue.result_real (V2 m ρ) c
    _ = outReal m c := by
        unfold MatmulValue.GReal outReal
        rw [found_x m ρ c, found_x' m ρ c, found_wr m ρ c, found_wc m ρ c]

theorem final_imag (c : Dev nD) : W3 m ρ c (Proc.devRef .tc main_v2_1) = outImag m c :=
  calc W3 m ρ c (Proc.devRef .tc main_v2_1)
    _ = (dat2 (V2 m ρ) c).arrAt 5 cfg2.N := W3_arr m ρ c 5
    _ = MatmulValue.GImag (V2 m ρ) c := MatmulValue.result_imag (V2 m ρ) c
    _ = outImag m c := by
        unfold MatmulValue.GImag outImag
        rw [found_x m ρ c, found_x' m ρ c, found_wr m ρ c, found_wc m ρ c]

/-- The run, read: both result arrays at the layer's output of the arguments, the arguments unchanged. -/
theorem run : θ_run defs (onTc (τ := τ) (main (F := Ideal))) ⟨m, fun _ => 0, ρ⟩ (fun r => ∀ c : Dev nD,
      r.2.mem ((c.tc : Thread nD τ).loc main_v2_0) = outReal m c
      ∧ r.2.mem ((c.tc : Thread nD τ).loc main_v2_1) = outImag m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final_real m ρ c), (h c).2.1.trans (final_imag m ρ c), (h c).2.2⟩)
    (KernelRun.run_named (F := Ideal) m ρ)

end Cert.KernelIdeal.KernelValue

end
-- ==== Proof.lean ====
/-
  A complex linear layer with binarized weights: the tiled kernel computes what the plain formula computes.

  Both programs take two inputs `x`, `x'` (8192 × 4096) and four weight arrays (4096 × 4096). A weight is thresholded at
  zero and the signed weights are differences of thresholds, `wr = step wrp - step wrn`, `wc = step wcp - step wcn`;
  the results are `x · wrᵀ + x' · wcᵀ` and `x · wcᵀ + x' · wrᵀ`.

  The kernel thresholds the weights directly, copies the inputs through a narrower float format (the identity on
  extended reals) and accumulates the products feature block by feature block, four blocks of 1024, into output tiles.
  The reference thresholds through `tanh` — `t + (q - t)` with `t = tanh w` and `q` the indicator of `t > 0`, which is
  the threshold of `w` because `t` is finite and positive exactly when `w` is — and takes each product as one
  contraction over all 4096 features. Over the extended reals addition is commutative and associative, so the blocked
  sums are the whole sums; the two programs' results are the same functions of the arguments, entry by entry, for every
  input, and the finiteness precondition is not used.

  The idealization rewrote nothing in the kernel, so that conjunct is trivial; the three frames are the generated ones
  (the reference's is its generated run with the results dropped).
-/
import proofs.«178758_j70987219468443_2_alg».proof.Defs
import proofs.«178758_j70987219468443_2_alg».proof.Proof.Gen.Kernel
import proofs.«178758_j70987219468443_2_alg».proof.Proof.Gen.Kernel.Skeleton
import proofs.«178758_j70987219468443_2_alg».proof.Proof.Gen.Kernel.Launch
import proofs.«178758_j70987219468443_2_alg».proof.Proof.Gen.Kernel.Points
import proofs.«178758_j70987219468443_2_alg».proof.Proof.Gen.Kernel.Frame
import proofs.«178758_j70987219468443_2_alg».proof.Proof.Gen.KernelIdeal
import proofs.«178758_j70987219468443_2_alg».proof.Proof.Gen.KernelIdeal.Skeleton
import proofs.«178758_j70987219468443_2_alg».proof.Proof.Gen.KernelIdeal.Launch
import proofs.«178758_j70987219468443_2_alg».proof.Proof.Gen.KernelIdeal.Points
import proofs.«178758_j70987219468443_2_alg».proof.Proof.Gen.KernelIdeal.Frame
import proofs.«178758_j70987219468443_2_alg».proof.Proof.Gen.ReferenceIdeal
import proofs.«178758_j70987219468443_2_alg».proof.Proof.Gen.Pre_finite_inputs
import proofs.«178758_j70987219468443_2_alg».proof.Proof.RefSide
import proofs.«178758_j70987219468443_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the six arguments both programs end with the two results at the layer's output of
    those arguments: the kernel's by its three regions read as values, the reference's by its operations read at an index. -/
theorem algebraic : Cert.algebraic_KernelIdeal_ReferenceIdeal := by
  intro m ρ m' ρ' _ hagree
  refine ⟨fun c => Cert.KernelIdeal.KernelValue.outReal m c, fun c => Cert.KernelIdeal.KernelValue.outImag m c, Cert.KernelIdeal.KernelValue.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v34_eq, Cert.ReferenceIdeal.RefValue.ref_real, a0, a1, a2, a3, a4, a5]
  · rw [Cert.ReferenceIdeal.Read.val_main_v35_eq, Cert.ReferenceIdeal.RefValue.ref_cplx, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
